-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x256 : Shape := ⟨2, ![4096, 256]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S16384x4096 .f32) (main_arg1 : FVec F S4096x256 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S16384x4096 : Shape := ⟨2, ![16384, 4096]⟩
abbrev S4096x256 : Shape := ⟨2, ![4096, 256]⟩
abbrev S16384x1 : Shape := ⟨2, ![16384, 1]⟩
abbrev S1024x1024 : Shape := ⟨2, ![1024, 1024]⟩
abbrev S1024x1 : Shape := ⟨2, ![1024, 1]⟩
abbrev S1024x256 : Shape := ⟨2, ![1024, 256]⟩
abbrev S1024 : Shape := ⟨1, ![1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S4096x256, .f32⟩
  | .local _ .vmem, ⟨3, _⟩ => ⟨S1024x1, .f32⟩
  | .local _ .vmem, ⟨4, _⟩ => ⟨S1024x1, .f32⟩
  | .local _ .vmem, ⟨5, _⟩ => ⟨S1024x256, .f32⟩
  | .local _ .vmem, ⟨6, _⟩ => ⟨S1024x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_2 : Index := 0#32
  ![v8.toNat, 0]
def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x256 : Shape := ⟨2, ![4096, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x256, .f32⟩
  | .hbm, ⟨3, _⟩ => ⟨S16384x4096, .f32⟩
  | .hbm, ⟨4, _⟩ => ⟨S4096x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x4096_S4096x256_S16384x256_1_0_0_1_n_n_wf : DotDims.WF S16384x4096 S4096x256 S16384x256 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.KerPieces.lean ====
import proofs.«171975_j82901458747778_2_alg».proof.Proof.Gen.KernelIdeal.Frame
import Idealize.ShloMosaic.Lib.Pipeline.Value
import Idealize.ShloMosaic.Lib.Tactic

/-!
# What one grid point leaves in the two accumulators and in the output block

The kernel body at a grid point (i, k) reads the 1024 x 1024 block of x at block row i and block column k, the
1024 rows of v that start at row 1024 k, and the two 1024 x 256 accumulators.  It adds the block product into the
first accumulator and the product of the squared blocks into the second; at k = 0 both accumulators are zeroed
first, and at k = 3 the output block is computed from the two accumulators it has just stored.  The lemmas here
name what each of the three control cases leaves, as the body's pure arithmetic applied to what it loaded.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The rows of v the body multiplies with at the point i: the 1024 rows from row 1024 k on. -/
abbrev vRows (i : grid0.Coords) (x1 : Vec F S4096x256 .f32) : Vec F S1024x256 .f32 :=
  View.ld x1 (Rect.unit (s := S4096x256) (k0_off1 i) S1024x256.size (k0_off1_inb i))

/-- The first accumulator after one step: what it held plus the block product. -/
abbrev stepXV (i : grid0.Coords) (x0 : Vec F S1024x1024 .f32) (x1 : Vec F S4096x256 .f32) (acc : Vec F S1024x256 .f32) :
    Vec F S1024x256 .f32 := k0_pay5 x0 (vRows i x1) acc

/-- The second accumulator after one step: what it held plus the product of the squared blocks. -/
abbrev stepX2V2 (i : grid0.Coords) (x0 : Vec F S1024x1024 .f32) (x1 : Vec F S4096x256 .f32) (acc : Vec F S1024x256 .f32) :
    Vec F S1024x256 .f32 := k0_pay6 x0 (vRows i x1) acc

/-- A middle point (k = 1, 2) leaves the first accumulator one step further. -/
theorem acc0_mid (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : ¬cond0_0 i) (hc1 : ¬cond0_1 i)
    (x0 : Vec F S1024x1024 .f32) (x1 : Vec F S4096x256 .f32) (xs0 xs1 : Vec F S1024x256 .f32) :
    sout0_B_0 c i a2 h2 a3 h3 a4 h4 a5 h5 a6 h6 hc0 hc1 x0 x1 xs0 xs1 = stepXV i x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  rw [View.canon_unit_zero zero_offsets]
  simp only [View.readAt_eq_ld, h2.read_unread, h3.read_unread, h5.read_unread,
    View.ld_unit_zero (S := S1024x256) zero_offsets, View.ld_unit_zero (S := S1024x1024) zero_offsets]

/-- A middle point leaves the second accumulator one step further. -/
theorem acc1_mid (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : ¬cond0_0 i) (hc1 : ¬cond0_1 i)
    (x0 : Vec F S1024x1024 .f32) (x1 : Vec F S4096x256 .f32) (xs0 xs1 : Vec F S1024x256 .f32) :
    sout0_B_1 c i a2 h2 a3 h3 a4 h4 a5 h5 a6 h6 hc0 hc1 x0 x1 xs0 xs1 = stepX2V2 i x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  rw [View.canon_unit_zero zero_offsets]
  simp only [View.readAt_eq_ld, h2.read_unread, h3.read_unread, h6.read_unread,
    View.ld_unit_zero (S := S1024x256) zero_offsets, View.ld_unit_zero (S := S1024x1024) zero_offsets]

/-- The last point of a block row (k = 3) leaves the first accumulator one step further. -/
theorem acc0_last (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : ¬cond0_0 i) (hc1 : cond0_1 i)
    (x0 : Vec F S1024x1024 .f32) (x1 : Vec F S4096x256 .f32) (xs0 xs1 : Vec F S1024x256 .f32) :
    sout0_C_0 c i a2 h2 a3 h3 a4 h4 a5 h5 a6 h6 hc0 hc1 x0 x1 xs0 xs1 = stepXV i x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero zero_offsets]
  simp only [View.readAt_eq_ld, h2.read_unread, h3.read_unread, h5.read_unread,
    View.ld_unit_zero (S := S1024x256) zero_offsets, View.ld_unit_zero (S := S1024x1024) zero_offsets]
  rfl

/-- The last point of a block row leaves the second accumulator one step further. -/
theorem acc1_last (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : ¬cond0_0 i) (hc1 : cond0_1 i)
    (x0 : Vec F S1024x1024 .f32) (x1 : Vec F S4096x256 .f32) (xs0 xs1 : Vec F S1024x256 .f32) :
    sout0_C_1 c i a2 h2 a3 h3 a4 h4 a5 h5 a6 h6 hc0 hc1 x0 x1 xs0 xs1 = stepX2V2 i x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero zero_offsets]
  simp only [View.readAt_eq_ld, h2.read_unread, h3.read_unread, h6.read_unread,
    View.ld_unit_zero (S := S1024x256) zero_offsets, View.ld_unit_zero (S := S1024x1024) zero_offsets]
  rfl

/-- The last point of a block row stores the output block: the body's closing arithmetic of the two accumulators as
    this point has just left them. -/
theorem out_last (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : ¬cond0_0 i) (hc1 : cond0_1 i)
    (x0 : Vec F S1024x1024 .f32) (x1 : Vec F S4096x256 .f32) (xs0 xs1 : Vec F S1024x256 .f32) :
    out0_C_2 c i a2 h2 a3 h3 a4 h4 a5 h5 a6 h6 hc0 hc1 x0 x1 xs0 xs1
      = k0_pay7 (stepXV i x0 x1 xs0) (stepX2V2 i x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero zero_offsets]
  simp only [View.readCov_unit_zero (S := S1024x256) _ zero_offsets, View.readAt_eq_ld, h2.read_unread, h3.read_unread,
    h5.read_unread, h6.read_unread,
    View.ld_unit_zero (S := S1024x256) zero_offsets, View.ld_unit_zero (S := S1024x1024) zero_offsets]
  rfl

/-- The first point of a block row (k = 0) zeroes the first accumulator and takes one step from the zero block. -/
theorem acc0_first (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : cond0_0 i) (hc1 : ¬cond0_1 i)
    (x0 : Vec F S1024x1024 .f32) (x1 : Vec F S4096x256 .f32) :
    sout0_A_0 c i a2 h2 a3 h3 a4 h4 a5 h5 a6 h6 hc0 hc1 x0 x1 = stepXV i x0 x1 k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1024x256) zero_offsets, View.readCov_unit_zero (S := S1024x256) _ zero_offsets]
  simp only [View.readAt_eq_ld, h2.read_unread, h3.read_unread,
    View.ld_unit_zero (S := S1024x1024) zero_offsets]
  rfl

/-- The first point of a block row zeroes the second accumulator and takes one step from the zero block. -/
theorem acc1_first (c : Dev nD) (i : grid0.Coords) (a2 : Memref sig .tc .vmem S1024x1024 .f32) (h2 : a2.IsWhole) (a3 : Memref sig .tc .vmem S4096x256 .f32) (h3 : a3.IsWhole) (a4 : Memref sig .tc .vmem S1024x1 .f32) (h4 : a4.IsWhole) (a5 : Memref sig .tc .vmem S1024x256 .f32) (h5 : a5.IsWhole) (a6 : Memref sig .tc .vmem S1024x256 .f32) (h6 : a6.IsWhole) (hc0 : cond0_0 i) (hc1 : ¬cond0_1 i)
    (x0 : Vec F S1024x1024 .f32) (x1 : Vec F S4096x256 .f32) :
    sout0_A_1 c i a2 h2 a3 h3 a4 h4 a5 h5 a6 h6 hc0 hc1 x0 x1 = stepX2V2 i x0 x1 k0_pay2 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1024x256) zero_offsets, View.readCov_unit_zero (S := S1024x256) _ zero_offsets]
  simp only [View.readAt_eq_ld, h2.read_unread, h3.read_unread,
    View.ld_unit_zero (S := S1024x1024) zero_offsets]
  rfl

end Cert.KernelIdeal.Pieces

end
-- ==== Proof.KerArith.lean ====
import proofs.«171975_j82901458747778_2_alg».proof.Proof.KerPieces
import Idealize.ShloMosaic.Lib.ValueIdx
import Idealize.ShloMosaic.Lib.Pipeline.Value
import Idealize.ShloMosaic.PureOps.Ideal.Laws

/-!
# The body's arithmetic, entry by entry, over the extended reals

Over the extended reals a change of float format is the identity and the matrix unit's product into a zero accumulator
is the plain sum of products, so one step of the first accumulator adds, at entry (p, f), the sum over the 1024
contraction indices l of block[p, l] * rows[l, f]; one step of the second adds the same sum with every factor squared;
and the closing arithmetic at row p is half the sum over the 256 columns of acc1[p, f]^2 - acc2[p, f].
-/

noncomputable section

open Idealize.ShloMosaic Idealize.ShloMosaic.TcCoe Idealize.SL.Sem

namespace Cert.KernelIdeal.Arith

open Cert.KernelIdeal Cert.KernelIdeal.Gen Cert.KernelIdeal.Pieces Idealize.ShloMosaic.ValueIdx

theorem lhs_row (j : S1024x256.Idx) (q : dot_S1024x1024_S1024x256_S1024x256_1_0_0_1_n_n.contr.Idx) : (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl

theorem lhs_contr (j : S1024x256.Idx) (q : dot_S1024x1024_S1024x256_S1024x256_1_0_0_1_n_n.contr.Idx) : (dot_S1024x1024_S1024x256_S1024x256_1_0_0_1_n_n.lhsIdx j q 1).val = (q ⟨0, by decide⟩).val :=
  dot_S1024x1024_S1024x256_S1024x256_1_0_0_1_n_n.lhsIdx_val_of_single rfl j q

theorem rhs_contr (j : S1024x256.Idx) (q : dot_S1024x1024_S1024x256_S1024x256_1_0_0_1_n_n.contr.Idx) : (dot_S1024x1024_S1024x256_S1024x256_1_0_0_1_n_n.rhsIdx j q 0).val = (q ⟨0, by decide⟩).val :=
  dot_S1024x1024_S1024x256_S1024x256_1_0_0_1_n_n.rhsIdx_val_of_single rfl j q

theorem rhs_col (j : S1024x256.Idx) (q : dot_S1024x1024_S1024x256_S1024x256_1_0_0_1_n_n.contr.Idx) : (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The kernel's matrix product of a 1024 x 1024 block with 1024 rows of v, into zero, at entry (p, f): the sum over
    the 1024 contraction indices. -/
theorem block_product_apply {φ₁ φ₂ : FTy} (a : FVec Ideal S1024x1024 φ₁) (b : FVec Ideal S1024x256 φ₂) (p : Fin 1024) (f : Fin 256) :
    matmul dot_S1024x1024_S1024x256_S1024x256_1_0_0_1_n_n none a b (constant (F := Ideal) S1024x256 .f32 0x00000000#32) (ix2 p f)
      = ∑ l : Fin 1024, a (ix2 p l) * b (ix2 l f) := by
  simp only [matmul]
  rw [Ideal.matmul_constant_zero_apply, ← Equiv.sum_comp (contrEquiv1 dot_S1024x1024_S1024x256_S1024x256_1_0_0_1_n_n 1024 rfl rfl).symm]
  refine Finset.sum_congr rfl fun l _ => ?_
  have hk := contrEquiv1_symm_val dot_S1024x1024_S1024x256_S1024x256_1_0_0_1_n_n 1024 rfl rfl l
  have el : dot_S1024x1024_S1024x256_S1024x256_1_0_0_1_n_n.lhsIdx (ix2 p f) ((contrEquiv1 dot_S1024x1024_S1024x256_S1024x256_1_0_0_1_n_n 1024 rfl rfl).symm l) = ix2 p l :=
    funext fun x => Fin.ext (by
      match x with
      | ⟨0, _⟩ => exact lhs_row _ _
      | ⟨1, _⟩ => exact (lhs_contr _ _).trans hk)
  have er : dot_S1024x1024_S1024x256_S1024x256_1_0_0_1_n_n.rhsIdx (ix2 p f) ((contrEquiv1 dot_S1024x1024_S1024x256_S1024x256_1_0_0_1_n_n 1024 rfl rfl).symm l) = ix2 l f :=
    funext fun x => Fin.ext (by
      match x with
      | ⟨0, _⟩ => exact (rhs_contr _ _).trans hk
      | ⟨1, _⟩ => exact rhs_col _ _)
  rw [el, er]

/-- One step of the first accumulator at entry (p, f): the entry gains the block's row p times the v rows' column f. -/
theorem stepXV_apply (i : grid0.Coords) (x0 : Vec Ideal S1024x1024 .f32) (x1 : Vec Ideal S4096x256 .f32)
    (acc : Vec Ideal S1024x256 .f32) (p : Fin 1024) (f : Fin 256) :
    stepXV i x0 x1 acc (ix2 p f) = acc (ix2 p f) + ∑ l : Fin 1024, x0 (ix2 p l) * vRows i x1 (ix2 l f) := by
  show shapeCast S1024x256 (addf acc (matmul dot_S1024x1024_S1024x256_S1024x256_1_0_0_1_n_n none (k0_pay3 x0) (k0_pay4 (vRows i x1))
    (constant S1024x256 .f32 0x00000000#32))) shapeCasts_S1024x256_S1024x256 (ix2 p f) = _
  rw [shapeCast_self]
  exact congrArg (acc (ix2 p f) + ·) (block_product_apply (k0_pay3 x0) (k0_pay4 (vRows i x1)) p f)

/-- One step of the second accumulator at entry (p, f): the same with every factor squared. -/
theorem stepX2V2_apply (i : grid0.Coords) (x0 : Vec Ideal S1024x1024 .f32) (x1 : Vec Ideal S4096x256 .f32)
    (acc : Vec Ideal S1024x256 .f32) (p : Fin 1024) (f : Fin 256) :
    stepX2V2 i x0 x1 acc (ix2 p f)
      = acc (ix2 p f) + ∑ l : Fin 1024, (x0 (ix2 p l) * x0 (ix2 p l)) * (vRows i x1 (ix2 l f) * vRows i x1 (ix2 l f)) := by
  show shapeCast S1024x256 (addf acc (matmul dot_S1024x1024_S1024x256_S1024x256_1_0_0_1_n_n none (mulf (k0_pay3 x0) (k0_pay3 x0))
    (mulf (k0_pay4 (vRows i x1)) (k0_pay4 (vRows i x1))) (constant S1024x256 .f32 0x00000000#32))) shapeCasts_S1024x256_S1024x256 (ix2 p f) = _
  rw [shapeCast_self]
  exact congrArg (acc (ix2 p f) + ·) (block_product_apply (mulf (k0_pay3 x0) (k0_pay3 x0)) (mulf (k0_pay4 (vRows i x1)) (k0_pay4 (vRows i x1))) p f)

/-- The block the accumulators are zeroed with holds zero at every entry. -/
theorem zero_block_apply (j : S1024x256.Idx) : k0_pay1 (F := Ideal) j = 0 := by
  show shapeCast S1024x256 (broadcast S1024x256 (Scalar.ofBits (F := Ideal) .f32 0x00000000#32)) shapeCasts_S1024x256_S1024x256 j = 0
  rw [shapeCast_self]
  exact Ideal.ofBits_zero_f32

theorem zero_block_apply' (j : S1024x256.Idx) : k0_pay2 (F := Ideal) j = 0 := by
  show shapeCast S1024x256 (broadcast S1024x256 (Scalar.ofBits (F := Ideal) .f32 0x00000000#32)) shapeCasts_S1024x256_S1024x256 j = 0
  rw [shapeCast_self]
  exact Ideal.ofBits_zero_f32

/-- The closing arithmetic at row p: half the sum over the 256 columns of the first accumulator's squared entry minus the
    second accumulator's entry. -/
theorem closing_apply (a b : Vec Ideal S1024x256 .f32) (p : Fin 1024) (z : Fin 1) :
    k0_pay7 a b (ix2 p z) = Ideal.ofBits .f32 0x3F000000#32 * ∑ f : Fin 256, (a (ix2 p f) * a (ix2 p f) - b (ix2 p f)) := by
  show Ideal.ofBits .f32 0x3F000000#32 * shapeCast S1024x1 (multiReduction (F := Ideal) .add [1] S1024 (subf (mulf a a) b) 0x00000000#32
    reduces_S1024x256_S1024 (.inl rfl) rfl) shapeCasts_S1024_S1024x1 (ix2 p z) = _
  refine congrArg (_ * ·) ?_
  refine (shapeCast_apply _ shapeCasts_S1024_S1024x1 (ix2 p z) (ix1 p) ?_).trans ?_
  · rw [Shape.rowMajor_val_one, Shape.rowMajor_val_two]
    show p.val = p.val * 1 + z.val
    have := z.isLt
    omega
  · refine (Ideal.multiReduction_add_single (subf (mulf a a) b) 0x00000000#32 reduces_S1024x256_S1024 (.inl rfl) rfl (ix1 p)).trans ?_
    refine Finset.sum_congr rfl fun f _ => ?_
    have e : reduces_S1024x256_S1024.lift (ix1 p) f = ix2 p f :=
      funext fun x => Fin.ext (by match x with | ⟨0, _⟩ => rfl | ⟨1, _⟩ => rfl)
    rw [e]
    rfl

end Cert.KernelIdeal.Arith

end
-- ==== Proof.FmSpec.lean ====
import Idealize.ShloMosaic.PureOps.Ideal
import Idealize.ShloMosaic.PureOps.Ideal.Laws
import Idealize.ShloMosaic.Lib.ValueIdx
import Mathlib.Algebra.BigOperators.Fin
import Mathlib.Tactic

/-!
# The second-order interaction term, as one function of the two arrays

For x of shape [16384, 4096] and v of shape [4096, 256], over the extended reals, row b of the result is

  half * sum over f of ( (sum over n of x[b,n] v[n,f])^2 - sum over n of x[b,n]^2 v[n,f]^2 ),

with half the value of the 32-bit pattern of 0.5.  This module states that function and the one law that joins the
kernel's arrangement to it: a sum over the 4096 contraction indices is the sum of its four consecutive blocks of
1024, so a running total that starts from zero and gains one block sum at each of four steps ends at the whole sum.
Addition of extended reals is commutative and associative with no finiteness needed, so nothing is assumed of the entries.
-/

noncomputable section

open scoped BigOperators

namespace Cert.FmSpec

open Idealize.ShloMosaic Idealize.ShloMosaic.ValueIdx

abbrev SX : Shape := ⟨2, ![16384, 4096]⟩
abbrev SV : Shape := ⟨2, ![4096, 256]⟩
abbrev SO : Shape := ⟨2, ![16384, 1]⟩

/-- Entry (b, f) of x v. -/
def xv (X : SX.Idx → EReal) (V : SV.Idx → EReal) (b : Fin 16384) (f : Fin 256) : EReal :=
  ∑ n : Fin 4096, X (ix2 b n) * V (ix2 n f)

/-- Entry (b, f) of (x * x) (v * v), the squares taken entry by entry. -/
def x2v2 (X : SX.Idx → EReal) (V : SV.Idx → EReal) (b : Fin 16384) (f : Fin 256) : EReal :=
  ∑ n : Fin 4096, (X (ix2 b n) * X (ix2 b n)) * (V (ix2 n f) * V (ix2 n f))

/-- The interaction term of row j 0. -/
def fm (X : SX.Idx → EReal) (V : SV.Idx → EReal) (j : SO.Idx) : EReal :=
  Ideal.ofBits .f32 0x3F000000#32 * ∑ f : Fin 256, (xv X V (j 0) f * xv X V (j 0) f - x2v2 X V (j 0) f)

/-- Row p of block row i. -/
abbrev row (i : Fin 16) (p : Fin 1024) : Fin 16384 := ⟨1024 * i.val + p.val, by have := i.isLt; have := p.isLt; omega⟩

/-- Contraction index l of contraction block k. -/
abbrev col (k : Fin 4) (l : Fin 1024) : Fin 4096 := ⟨1024 * k.val + l.val, by have := k.isLt; have := l.isLt; omega⟩

/-- A sum over the 4096 contraction indices, block by block. -/
theorem sum_blocks (g : Fin 4096 → EReal) : ∑ n : Fin 4096, g n = ∑ k : Fin 4, ∑ l : Fin 1024, g (col k l) := by
  have e := (Equiv.sum_comp (finProdFinEquiv (m := 4) (n := 1024)) (g : Fin (4 * 1024) → EReal)).symm
  rw [Fintype.sum_prod_type] at e
  refine e.trans (Finset.sum_congr rfl fun k _ => Finset.sum_congr rfl fun l _ => congrArg g (Fin.ext ?_))
  show l.val + 1024 * k.val = 1024 * k.val + l.val
  omega

/-- A running total from z that gains the four block sums in order ends at z plus the whole sum. -/
theorem four_steps (z : EReal) (g : Fin 4096 → EReal) :
    (((z + ∑ l : Fin 1024, g (col 0 l)) + ∑ l : Fin 1024, g (col 1 l)) + ∑ l : Fin 1024, g (col 2 l))
        + ∑ l : Fin 1024, g (col 3 l) = z + ∑ n : Fin 4096, g n := by
  rw [sum_blocks, Fin.sum_univ_four, add_assoc, add_assoc, add_assoc]
  congr 1
  rw [add_assoc, add_assoc]

/-- The part of entry (1024 i + p, f) of x v that contraction block k contributes. -/
abbrev blkXV (X : SX.Idx → EReal) (V : SV.Idx → EReal) (i : Fin 16) (k : Fin 4) (p : Fin 1024) (f : Fin 256) : EReal :=
  ∑ l : Fin 1024, X (ix2 (row i p) (col k l)) * V (ix2 (col k l) f)

/-- The part of entry (1024 i + p, f) of (x * x) (v * v) that contraction block k contributes. -/
abbrev blkX2V2 (X : SX.Idx → EReal) (V : SV.Idx → EReal) (i : Fin 16) (k : Fin 4) (p : Fin 1024) (f : Fin 256) : EReal :=
  ∑ l : Fin 1024, (X (ix2 (row i p) (col k l)) * X (ix2 (row i p) (col k l))) * (V (ix2 (col k l) f) * V (ix2 (col k l) f))

/-- Zero plus the four contributions, added in order, is the entry of x v. -/
theorem xv_blocks (X : SX.Idx → EReal) (V : SV.Idx → EReal) (i : Fin 16) (p : Fin 1024) (f : Fin 256) :
    (((0 + blkXV X V i 0 p f) + blkXV X V i 1 p f) + blkXV X V i 2 p f) + blkXV X V i 3 p f = xv X V (row i p) f :=
  (four_steps 0 fun n => X (ix2 (row i p) n) * V (ix2 n f)).trans (zero_add _)

/-- Zero plus the four contributions, added in order, is the entry of (x * x) (v * v). -/
theorem x2v2_blocks (X : SX.Idx → EReal) (V : SV.Idx → EReal) (i : Fin 16) (p : Fin 1024) (f : Fin 256) :
    (((0 + blkX2V2 X V i 0 p f) + blkX2V2 X V i 1 p f) + blkX2V2 X V i 2 p f) + blkX2V2 X V i 3 p f = x2v2 X V (row i p) f :=
  (four_steps 0 fun n => (X (ix2 (row i p) n) * X (ix2 (row i p) n)) * (V (ix2 n f) * V (ix2 n f))).trans (zero_add _)

end Cert.FmSpec

end
-- ==== Proof.KerPoints.lean ====
import proofs.«171975_j82901458747778_2_alg».proof.Proof.Gen.KernelIdeal.Value
import proofs.«171975_j82901458747778_2_alg».proof.Proof.KerArith
import proofs.«171975_j82901458747778_2_alg».proof.Proof.FmSpec

/-!
# The accumulators along a block row

The grid has 64 points; point t works on block row t / 4 of x and contraction block t % 4.  The two accumulators are
carried from point to point: the first point of a block row restarts them from zero, every point adds its block's
contribution.  Read entry by entry over the extended reals, with the blocks a point loads read back as entries of
the argument arrays, each point adds to entry (p, f) the sum over its 1024 contraction indices l of
x[1024 i + p, 1024 k + l] * v[1024 k + l, f] (and the same with every factor squared).
-/

noncomputable section

open Idealize.ShloMosaic Idealize.ShloMosaic.TcCoe Idealize.SL.Sem
open Idealize.ShloMosaic.Pipeline (Dat)

namespace Cert.KernelIdeal.FmValue

open Cert.KernelIdeal Cert.KernelIdeal.Gen Cert.KernelIdeal.Pieces Cert.KernelIdeal.Arith Cert.FmSpec
open Idealize.ShloMosaic.ValueIdx

/-! ## What the grid points leave, as vectors (any float instance) -/

section AnyF

variable {F : FTy → Type} [FloatOps F]
variable (m : (ℓ : Loc nD τ sig) → Buf (Elt F) ℓ)

/-- At the first point of a block row both accumulators take one step from the zero block. -/
theorem pt_first (c : Dev nD) (t : Fin cfg0.N) (h0 : t.val % 4 = 0) (h1 : ¬t.val % 4 = 3) :
    (outsAt0 m c t.val t.isLt).2.1 = stepXV (grid0.coords t) (iblk m c 0 t) (iblk m c 1 t) k0_pay1
    ∧ (outsAt0 m c t.val t.isLt).2.2 = stepX2V2 (grid0.coords t) (iblk m c 0 t) (iblk m c 1 t) k0_pay2 := by
  rw [outsAt0_A m c t h0 h1]
  dsimp only
  have e0 := acc0_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)
  have e1 := acc1_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)
  exact ⟨e0, e1⟩

/-- At a middle point both accumulators take one step from what the point before left. -/
theorem pt_mid (c : Dev nD) (t : Fin cfg0.N) (h0 : ¬t.val % 4 = 0) (h1 : ¬t.val % 4 = 3) :
    (outsAt0 m c t.val t.isLt).2.1 = stepXV (grid0.coords t) (iblk m c 0 t) (iblk m c 1 t) (outsAt0 m c (t.val - 1) (Nat.lt_of_le_of_lt (Nat.sub_le _ _) t.isLt)).2.1
    ∧ (outsAt0 m c t.val t.isLt).2.2 = stepX2V2 (grid0.coords t) (iblk m c 0 t) (iblk m c 1 t) (outsAt0 m c (t.val - 1) (Nat.lt_of_le_of_lt (Nat.sub_le _ _) t.isLt)).2.2 := by
  rw [outsAt0_B m c t h0 h1]
  dsimp only
  have e0 := acc0_mid c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  have e1 := acc1_mid c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  exact ⟨e0, e1⟩

/-- At the last point of a block row both accumulators take one more step, and the output block is the closing
    arithmetic of the two accumulators as that step leaves them. -/
theorem pt_last (c : Dev nD) (t : Fin cfg0.N) (h0 : ¬t.val % 4 = 0) (h1 : t.val % 4 = 3) :
    (outsAt0 m c t.val t.isLt).2.1 = stepXV (grid0.coords t) (iblk m c 0 t) (iblk m c 1 t) (outsAt0 m c (t.val - 1) (Nat.lt_of_le_of_lt (Nat.sub_le _ _) t.isLt)).2.1
    ∧ (outsAt0 m c t.val t.isLt).2.2 = stepX2V2 (grid0.coords t) (iblk m c 0 t) (iblk m c 1 t) (outsAt0 m c (t.val - 1) (Nat.lt_of_le_of_lt (Nat.sub_le _ _) t.isLt)).2.2
    ∧ (outsAt0 m c t.val t.isLt).1 = k0_pay7 (outsAt0 m c t.val t.isLt).2.1 (outsAt0 m c t.val t.isLt).2.2 := by
  rw [outsAt0_C m c t h0 h1]
  dsimp only
  have e0 := acc0_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  have e1 := acc1_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  have e2 := out_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  refine ⟨e0, e1, ?_⟩
  rw [e0, e1]
  exact e2

end AnyF

/-! ## The blocks a point reads, entry by entry -/

section AtIdeal

variable (m : (ℓ : Loc nD τ sig) → Buf (Elt Ideal) ℓ)

/-- The printed index maps and the rows-of-v offset, decided over the 64 grid points: point t is block row t / 4 and
    contraction block t % 4. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ k0_off1 (grid0.coords t) (0 : Fin 2) = 1024 * (t.val % 4) ∧ k0_off1 (grid0.coords t) (1 : Fin 2) = 0 :=
  (by decide +kernel : ∀ t : Fin grid0.N, _)

/-- Entry (p, l) of the block of x a point reads is x at row 1024 i + p, column 1024 k + l. -/
theorem xblock_apply (c : Dev nD) (t : Fin cfg0.N) (i : Fin 16) (k : Fin 4) (ht : t.val = 4 * i.val + k.val) (p l : Fin 1024) :
    (iblk m c 0 t : Vec Ideal S1024x1024 .f32) (ix2 p l) = m ((c : Thread nD τ).loc main_arg0) (ix2 (row i p) (col k l)) := by
  obtain ⟨e0, e1, -⟩ := idx_facts t
  have hk := k.isLt
  unfold iblk
  rw [View.read_apply]
  show V m c main_arg0 _ = _
  refine congrArg (m ((c : Thread nD τ).loc main_arg0)) (funext fun a => Fin.ext ?_)
  match a with
  | ⟨0, _⟩ =>
    show win0_0.index t (0 : Fin 2) * 1024 + 1 * p.val = 1024 * i.val + p.val
    rw [e0]; omega
  | ⟨1, _⟩ =>
    show win0_0.index t (1 : Fin 2) * 1024 + 1 * l.val = 1024 * k.val + l.val
    rw [e1]; omega

/-- Entry (l, f) of the rows of v a point multiplies with is v at row 1024 k + l, column f. -/
theorem vrows_apply (c : Dev nD) (t : Fin cfg0.N) (k : Fin 4) (hk : t.val % 4 = k.val) (l : Fin 1024) (f : Fin 256) :
    vRows (grid0.coords t) (iblk m c 1 t : Vec Ideal S4096x256 .f32) (ix2 l f) = m ((c : Thread nD τ).loc main_arg1) (ix2 (col k l) f) := by
  obtain ⟨-, -, e2, e3, -, -, e6, e7⟩ := idx_facts t
  show (iblk m c 1 t : Vec Ideal S4096x256 .f32)
    ((Rect.unit (s := S4096x256) (k0_off1 (grid0.coords t)) S1024x256.size (k0_off1_inb (grid0.coords t))).idx (ix2 l f)) = _
  unfold iblk
  rw [View.read_apply]
  show V m c main_arg1 _ = _
  refine congrArg (m ((c : Thread nD τ).loc main_arg1)) (funext fun a => Fin.ext ?_)
  match a with
  | ⟨0, _⟩ =>
    show win0_1.index t (0 : Fin 2) * 4096 + 1 * (k0_off1 (grid0.coords t) (0 : Fin 2) + 1 * l.val) = 1024 * k.val + l.val
    rw [e2, e6]; omega
  | ⟨1, _⟩ =>
    show win0_1.index t (1 : Fin 2) * 256 + 1 * (k0_off1 (grid0.coords t) (1 : Fin 2) + 1 * f.val) = f.val
    rw [e3, e7]; omega

/-! ## The accumulators after a point, entry by entry -/

/-- After the first point of block row i, entry (p, f) of each accumulator is zero plus block 0's contribution. -/
theorem acc_first_apply (c : Dev nD) (t : Fin cfg0.N) (i : Fin 16) (ht : t.val = 4 * i.val) (p : Fin 1024) (f : Fin 256) :
    (outsAt0 m c t.val t.isLt).2.1 (ix2 p f) = 0 + blkXV (m ((c : Thread nD τ).loc main_arg0)) (m ((c : Thread nD τ).loc main_arg1)) i 0 p f
    ∧ (outsAt0 m c t.val t.isLt).2.2 (ix2 p f) = 0 + blkX2V2 (m ((c : Thread nD τ).loc main_arg0)) (m ((c : Thread nD τ).loc main_arg1)) i 0 p f := by
  have h0 : t.val % 4 = 0 := by omega
  have h1 : ¬t.val % 4 = 3 := by omega
  obtain ⟨e0, e1⟩ := pt_first m c t h0 h1
  have hx : ∀ l : Fin 1024, (iblk m c 0 t : Vec Ideal S1024x1024 .f32) (ix2 p l) = (m ((c : Thread nD τ).loc main_arg0)) (ix2 (row i p) (col 0 l)) :=
    fun l => xblock_apply m c t i 0 (by show t.val = 4 * i.val + 0; omega) p l
  have hv : ∀ l : Fin 1024, vRows (grid0.coords t) (iblk m c 1 t : Vec Ideal S4096x256 .f32) (ix2 l f) = (m ((c : Thread nD τ).loc main_arg1)) (ix2 (col 0 l) f) :=
    fun l => vrows_apply m c t 0 (by show t.val % 4 = 0; omega) l f
  constructor
  · refine (congrFun e0 (ix2 p f)).trans ((stepXV_apply (grid0.coords t) (iblk m c 0 t) (iblk m c 1 t) (k0_pay1 (F := Ideal)) p f).trans ?_)
    refine congrArg₂ (· + ·) (zero_block_apply (ix2 p f)) (Finset.sum_congr rfl fun l _ => ?_)
    rw [hx l, hv l]
  · refine (congrFun e1 (ix2 p f)).trans ((stepX2V2_apply (grid0.coords t) (iblk m c 0 t) (iblk m c 1 t) (k0_pay2 (F := Ideal)) p f).trans ?_)
    refine congrArg₂ (· + ·) (zero_block_apply' (ix2 p f)) (Finset.sum_congr rfl fun l _ => ?_)
    rw [hx l, hv l]

/-- After a later point (contraction block k > 0) of block row i, entry (p, f) of each accumulator is what the point
    before left there plus block k's contribution. -/
theorem acc_next_apply (c : Dev nD) (t : Fin cfg0.N) (i : Fin 16) (k : Fin 4) (ht : t.val = 4 * i.val + k.val) (hk : k.val ≠ 0)
    (p : Fin 1024) (f : Fin 256) :
    (outsAt0 m c t.val t.isLt).2.1 (ix2 p f) = (outsAt0 m c (t.val - 1) (Nat.lt_of_le_of_lt (Nat.sub_le _ _) t.isLt)).2.1 (ix2 p f) + blkXV (m ((c : Thread nD τ).loc main_arg0)) (m ((c : Thread nD τ).loc main_arg1)) i k p f
    ∧ (outsAt0 m c t.val t.isLt).2.2 (ix2 p f) = (outsAt0 m c (t.val - 1) (Nat.lt_of_le_of_lt (Nat.sub_le _ _) t.isLt)).2.2 (ix2 p f) + blkX2V2 (m ((c : Thread nD τ).loc main_arg0)) (m ((c : Thread nD τ).loc main_arg1)) i k p f := by
  have hk4 := k.isLt
  have h0 : ¬t.val % 4 = 0 := by omega
  have hx : ∀ l : Fin 1024, (iblk m c 0 t : Vec Ideal S1024x1024 .f32) (ix2 p l) = (m ((c : Thread nD τ).loc main_arg0)) (ix2 (row i p) (col k l)) :=
    fun l => xblock_apply m c t i k ht p l
  have hv : ∀ l : Fin 1024, vRows (grid0.coords t) (iblk m c 1 t : Vec Ideal S4096x256 .f32) (ix2 l f) = (m ((c : Thread nD τ).loc main_arg1)) (ix2 (col k l) f) :=
    fun l => vrows_apply m c t k (by omega) l f
  have key : (outsAt0 m c t.val t.isLt).2.1 = stepXV (grid0.coords t) (iblk m c 0 t) (iblk m c 1 t) (outsAt0 m c (t.val - 1) (Nat.lt_of_le_of_lt (Nat.sub_le _ _) t.isLt)).2.1
      ∧ (outsAt0 m c t.val t.isLt).2.2 = stepX2V2 (grid0.coords t) (iblk m c 0 t) (iblk m c 1 t) (outsAt0 m c (t.val - 1) (Nat.lt_of_le_of_lt (Nat.sub_le _ _) t.isLt)).2.2 := by
    by_cases h1 : t.val % 4 = 3
    · exact ⟨(pt_last m c t h0 h1).1, (pt_last m c t h0 h1).2.1⟩
    · exact pt_mid m c t h0 h1
  obtain ⟨e0, e1⟩ := key
  constructor
  · refine (congrFun e0 (ix2 p f)).trans ((stepXV_apply (grid0.coords t) (iblk m c 0 t) (iblk m c 1 t) _ p f).trans ?_)
    refine congrArg (_ + ·) (Finset.sum_congr rfl fun l _ => ?_)
    rw [hx l, hv l]
  · refine (congrFun e1 (ix2 p f)).trans ((stepX2V2_apply (grid0.coords t) (iblk m c 0 t) (iblk m c 1 t) _ p f).trans ?_)
    refine congrArg (_ + ·) (Finset.sum_congr rfl fun l _ => ?_)
    rw [hx l, hv l]

end AtIdeal

end Cert.KernelIdeal.FmValue

end
-- ==== Proof.KerValue.lean ====
import proofs.«171975_j82901458747778_2_alg».proof.Proof.KerPoints

/-!
# The kernel's result array is the interaction term

After the last point of block row i the first accumulator holds rows 1024 i .. 1024 i + 1023 of x v and the second
the same rows of (x * x) (v * v): four contributions added in order from zero make the whole sum over the 4096
contraction indices.  The output block that point stores is therefore the interaction term of those rows, the 16
blocks written at the points 3, 7, ..., 63 tile the result array, and so the array ends at the interaction term.
-/

noncomputable section

open Idealize.ShloMosaic Idealize.ShloMosaic.TcCoe Idealize.SL.Sem
open Idealize.ShloMosaic.Pipeline (Dat)

namespace Cert.KernelIdeal.FmValue

open Cert.KernelIdeal Cert.KernelIdeal.Gen Cert.KernelIdeal.Pieces Cert.KernelIdeal.Arith Cert.FmSpec
open Idealize.ShloMosaic.ValueIdx

variable (m : (ℓ : Loc nD τ sig) → Buf (Elt Ideal) ℓ)

/-- After the last point of block row i the accumulators hold row 1024 i + p of x v and of (x * x) (v * v): the four
    contributions were added in order, from zero. -/
theorem acc_row (c : Dev nD) (t : Fin cfg0.N) (i : Fin 16) (ht : t.val = 4 * i.val + 3) (p : Fin 1024) (f : Fin 256) :
    (outsAt0 m c t.val t.isLt).2.1 (ix2 p f) = xv (m ((c : Thread nD τ).loc main_arg0)) (m ((c : Thread nD τ).loc main_arg1)) (row i p) f
    ∧ (outsAt0 m c t.val t.isLt).2.2 (ix2 p f) = x2v2 (m ((c : Thread nD τ).loc main_arg0)) (m ((c : Thread nD τ).loc main_arg1)) (row i p) f := by
  have hN : cfg0.N = 64 := N_0
  obtain ⟨n, hn⟩ := t
  dsimp only at ht
  subst ht
  have s3 := acc_next_apply m c ⟨4 * i.val + 3, hn⟩ i 3 rfl (by decide) p f
  have s2 := acc_next_apply m c ⟨4 * i.val + 2, by omega⟩ i 2 rfl (by decide) p f
  have s1 := acc_next_apply m c ⟨4 * i.val + 1, by omega⟩ i 1 rfl (by decide) p f
  have s0 := acc_first_apply m c ⟨4 * i.val, by omega⟩ i rfl p f
  exact ⟨(s3.1.trans (congrArg (· + _) (s2.1.trans (congrArg (· + _) (s1.1.trans (congrArg (· + _) s0.1)))))).trans
      (xv_blocks _ _ i p f),
    (s3.2.trans (congrArg (· + _) (s2.2.trans (congrArg (· + _) (s1.2.trans (congrArg (· + _) s0.2)))))).trans
      (x2v2_blocks _ _ i p f)⟩

/-! ## From the output blocks to the result array -/

/-- What a writing point writes back is its block of the interaction term of the two argument arrays. -/
theorem flushed_eq (c : Dev nD) (t : Fin cfg0.N) (hf : (cfg0.win 2).flush t = true) :
    (dats m 0 c).flushed 2 t = ((cfg0.win 2).blk t).view.read (Elt Ideal) (fm (m ((c : Thread nD τ).loc main_arg0)) (m ((c : Thread nD τ).loc main_arg1))) := by
  have h3 : t.val % 4 = 3 := (flush0_2 t).mp hf
  have hN : cfg0.N = 64 := N_0
  have htl := t.isLt
  obtain ⟨i, hi⟩ : ∃ i : Fin 16, t.val = 4 * i.val + 3 :=
    ⟨⟨t.val / 4, by omega⟩, by show t.val = 4 * (t.val / 4) + 3; omega⟩
  obtain ⟨-, -, -, -, e4, -⟩ := idx_facts t
  obtain ⟨-, -, eo⟩ := pt_last m c t (by omega) h3
  rw [Value.flushed2]
  refine funext fun y => ?_
  rw [View.read_apply]
  have hp : (y 0).val < 1024 := (y 0).isLt
  have hz : (y 1).val < 1 := (y 1).isLt
  have ey : (cfg0.win 2).xinj (grid0.coords t) y = ix2 (⟨(y 0).val, hp⟩ : Fin 1024) (⟨(y 1).val, hz⟩ : Fin 1) :=
    funext fun a => by match a with | ⟨0, _⟩ => rfl | ⟨1, _⟩ => rfl
  have er : (((cfg0.win 2).blk t).view.emb y) 0 = row i ⟨(y 0).val, hp⟩ := Fin.ext (by
    show win0_2.index t (0 : Fin 2) * 1024 + 1 * (y 0).val = 1024 * i.val + (y 0).val
    rw [e4]; omega)
  show (outsAt0 m c t.val t.isLt).1 ((cfg0.win 2).xinj (grid0.coords t) y) = fm (m ((c : Thread nD τ).loc main_arg0)) (m ((c : Thread nD τ).loc main_arg1)) (((cfg0.win 2).blk t).view.emb y)
  rw [eo, ey]
  refine (closing_apply _ _ ⟨(y 0).val, hp⟩ ⟨(y 1).val, hz⟩).trans ?_
  unfold fm
  rw [er]
  refine congrArg (_ * ·) (Finset.sum_congr rfl fun f _ => ?_)
  rw [(acc_row m c t i hi ⟨(y 0).val, hp⟩ f).1, (acc_row m c t i hi ⟨(y 0).val, hp⟩ f).2]

/-- An index of the result array lies in point t's block iff its coordinates lie in the block's ranges. -/
theorem mem_blk (t : Fin cfg0.N) (j : S16384x1.Idx) :
    j ∈ ((cfg0.win 2).blk t).view.set ↔ ∀ a : Fin 2, win0_2.index t a * S1024x1.size a ≤ (j a).val ∧ (j a).val < win0_2.index t a * S1024x1.size a + S1024x1.size a := by
  show j ∈ ((View.whole main_v0).slice (win0_2.rect t)).set ↔ _
  rw [View.set_slice_whole, Rect.mem_set_unit]
  exact Iff.rfl

/-- Row b of the result lies in the block written at the last point of block row b / 1024. -/
theorem covered (j : S16384x1.Idx) : ∃ t : Fin cfg0.N, (cfg0.win 2).flush t = true ∧ j ∈ ((cfg0.win 2).blk t).view.set := by
  have hN : cfg0.N = 64 := N_0
  have h0 : (j 0).val < 16384 := (j 0).isLt
  have h1 : (j 1).val < 1 := (j 1).isLt
  let t : Fin cfg0.N := ⟨4 * ((j 0).val / 1024) + 3, by omega⟩
  have htv : t.val = 4 * ((j 0).val / 1024) + 3 := rfl
  obtain ⟨-, -, -, -, e4, e5, -⟩ := idx_facts t
  refine ⟨t, (flush0_2 t).mpr (by omega), ?_⟩
  rw [mem_blk]
  intro a
  match a with
  | ⟨0, _⟩ =>
    show win0_2.index t (0 : Fin 2) * 1024 ≤ (j 0).val ∧ (j 0).val < win0_2.index t (0 : Fin 2) * 1024 + 1024
    rw [e4]; omega
  | ⟨1, _⟩ =>
    show win0_2.index t (1 : Fin 2) * 1 ≤ (j 1).val ∧ (j 1).val < win0_2.index t (1 : Fin 2) * 1 + 1
    rw [e5]; omega

/-- The result array after the run is the interaction term of the two argument arrays. -/
theorem final (c : Dev nD) : (dats m 0 c).arrAt 2 cfg0.N = fm (m ((c : Thread nD τ).loc main_arg0)) (m ((c : Thread nD τ).loc main_arg1)) :=
  (dats m 0 c).arrAt_eq_of_cover 2 (fm (m ((c : Thread nD τ).loc main_arg0)) (m ((c : Thread nD τ).loc main_arg1))) (flushed_eq m c) covered

/-- The kernel's run: every fair execution ends with the result array at the interaction term of the argument
    arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = fm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FmValue

end
-- ==== Proof.RefIsFm.lean ====
import proofs.«171975_j82901458747778_2_alg».proof.Proof.Gen.ReferenceIdeal.Read
import proofs.«171975_j82901458747778_2_alg».proof.Proof.FmSpec

/-!
# The reference computes the interaction term

Read one operation at a time, the reference's result at row b is half times (zero plus the sum over f of the
squared entry of x v minus the entry of (x * x)(v * v)), each entry a sum over the 4096 contraction indices: the
specification's function, the leading zero dropped.
-/

noncomputable section

namespace Cert.ReferenceIdeal.RefValue

open Cert.ReferenceIdeal Cert.ReferenceIdeal.Gen Cert.ReferenceIdeal.Read
open Idealize.ShloMosaic Idealize.ShloMosaic.ValueIdx

theorem lhs_idx (i : S16384x1.Idx) (k : Fin 256) (n : Fin 4096) :
    lidx_main_v0 (idx_main_v6 (idx_main_v7 i) k) n = ix2 (i 0) n :=
  funext fun a => by match a with | ⟨0, _⟩ => rfl | ⟨1, _⟩ => rfl

theorem rhs_idx (i : S16384x1.Idx) (k : Fin 256) (n : Fin 4096) :
    ridx_main_v0 (idx_main_v6 (idx_main_v7 i) k) n = ix2 n k :=
  funext fun a => by match a with | ⟨0, _⟩ => rfl | ⟨1, _⟩ => rfl

theorem lhs_idx_sq (i : S16384x1.Idx) (k : Fin 256) (n : Fin 4096) :
    lidx_main_v3 (idx_main_v6 (idx_main_v7 i) k) n = ix2 (i 0) n :=
  funext fun a => by match a with | ⟨0, _⟩ => rfl | ⟨1, _⟩ => rfl

theorem rhs_idx_sq (i : S16384x1.Idx) (k : Fin 256) (n : Fin 4096) :
    ridx_main_v3 (idx_main_v6 (idx_main_v7 i) k) n = ix2 n k :=
  funext fun a => by match a with | ⟨0, _⟩ => rfl | ⟨1, _⟩ => rfl

/-- The reference's last stage, at the extended reals, is the interaction term of its two arguments. -/
theorem ref_eq_fm (x0 : (⟨S16384x4096, .f32⟩ : BufTy).Contents (Elt Ideal)) (x1 : (⟨S4096x256, .f32⟩ : BufTy).Contents (Elt Ideal)) :
    val_main_v9 (F := Ideal) x0 x1 = Cert.FmSpec.fm x0 x1 := by
  funext i
  rw [val_main_v9_apply, val_main_v8_apply, val_main_cst_0_apply, val_main_v7_apply, val_main_v6_apply, val_main_cst_apply]
  simp only [val_main_v5_apply, val_main_v4_apply, val_main_v0_apply, val_main_v3_apply, val_main_v1_apply,
    val_main_v2_apply, Ideal.mulf_def, Ideal.subf_def, Ideal.ofBits_def, Ideal.ofBits_zero_f32, zero_add,
    lhs_idx, rhs_idx, lhs_idx_sq, rhs_idx_sq]
  rfl

end Cert.ReferenceIdeal.RefValue

end
-- ==== Proof.lean ====
/-
  The claim: a Pallas kernel for the second-order term of a factorization machine against its jnp reference.
  For x of shape [16384, 4096] and v of shape [4096, 256] both compute, for every row b,

      0.5 * sum over f of ( (x v)[b, f]^2 - ((x * x) (v * v))[b, f] ).

  The kernel walks a 16 x 4 grid: a point takes a 1024 x 1024 block of x and the matching 1024 rows of v, adds the
  block product to one accumulator and the product of the squared blocks to another, restarts both from zero at the
  first contraction block of a block row, and at the last one stores the closing sum for its 1024 rows.  The reference
  takes the two whole products.  Over the extended reals the roundings to bf16 are the identity and a sum over the 4096
  contraction indices is the sum of its four blocks of 1024, whatever the entries: addition there is commutative and
  associative with no finiteness needed.  So both programs end at the same function of the arguments (FmSpec.fm),
  and the precondition is never opened.  The idealization rewrote nothing, so its claim is trivial; the three
  programs' runs and frames are the generated ones.
-/
import proofs.«171975_j82901458747778_2_alg».proof.Defs
import proofs.«171975_j82901458747778_2_alg».proof.Proof.Gen.Kernel
import proofs.«171975_j82901458747778_2_alg».proof.Proof.Gen.Kernel.Frame
import proofs.«171975_j82901458747778_2_alg».proof.Proof.Gen.KernelIdeal
import proofs.«171975_j82901458747778_2_alg».proof.Proof.Gen.KernelIdeal.Frame
import proofs.«171975_j82901458747778_2_alg».proof.Proof.Gen.KernelIdeal.Value
import proofs.«171975_j82901458747778_2_alg».proof.Proof.Gen.ReferenceIdeal
import proofs.«171975_j82901458747778_2_alg».proof.Proof.Gen.ReferenceIdeal.Run
import proofs.«171975_j82901458747778_2_alg».proof.Proof.Gen.ReferenceIdeal.Read
import proofs.«171975_j82901458747778_2_alg».proof.Proof.Gen.Pre_finite_inputs
import proofs.«171975_j82901458747778_2_alg».proof.Proof.KerValue
import proofs.«171975_j82901458747778_2_alg».proof.Proof.RefIsFm
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the interaction term of the (agreeing) arguments. -/
theorem algebraic : Cert.algebraic_KernelIdeal_ReferenceIdeal := by
  intro m ρ m' ρ' _ hagree
  refine ⟨_, Cert.KernelIdeal.FmValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_fm, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
